-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S131072 : Shape := ⟨1, ![131072]⟩
abbrev S512x32 : Shape := ⟨2, ![512, 32]⟩
abbrev S32x16 : Shape := ⟨2, ![32, 16]⟩
abbrev S8192x16 : Shape := ⟨2, ![8192, 16]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S131072 : S_.BroadcastsInDim S131072 (![] : Fin 0 → Fin S131072.rank)
  reducesTo_S131072_S_d0 : S131072.ReducesTo [0] S_
  bcast_S_S512x32 : S_.BroadcastsInDim S512x32 (![] : Fin 0 → Fin S512x32.rank)
  reducesTo_S512x32_S_d0_1 : S512x32.ReducesTo [0, 1] S_
  bcast_S_S32x16 : S_.BroadcastsInDim S32x16 (![] : Fin 0 → Fin S32x16.rank)
  reducesTo_S32x16_S_d0_1 : S32x16.ReducesTo [0, 1] S_
  bcast_S_S8192x16 : S_.BroadcastsInDim S8192x16 (![] : Fin 0 → Fin S8192x16.rank)
  reducesTo_S8192x16_S_d0_1 : S8192x16.ReducesTo [0, 1] S_

variable [Facts]

def fn_part2 {F : FTy → Type} [FloatOps F] (main_arg9 : FVec F S8192x16 .f32) (main_v33 : IVec S_ 1) : IVec S_ 1 :=
  let main_v34 : FVec F S8192x16 .f32 := Host.absf main_arg9
  let main_cst_12 : FVec F S_ .f32 := constant S_ .f32 0x7F800000#32
  let main_v35 : FVec F S8192x16 .f32 := broadcastInDim S8192x16 ![] bcast_S_S8192x16 main_cst_12
  let main_v36 : IVec S8192x16 1 := cmpf .olt main_v34 main_v35
  let main_c_13 : IVec S_ 1 := constantI S_ 1 1#1
  let main_v37 : IVec S_ 1 := (fun x v => Host.reduce IntOp.andi x v reducesTo_S8192x16_S_d0_1 h_S_) main_v36 main_c_13
  let main_v38 : IVec S_ 1 := andi main_v33 main_v37
  main_v38

def fn_part1 {F : FTy → Type} [FloatOps F] (main_arg6 : FVec F S32x16 .f32) (main_arg7 : FVec F S32x16 .f32) (main_arg8 : FVec F S8192x16 .f32) (main_arg9 : FVec F S8192x16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S32x16 .f32 := Host.absf main_arg6
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S32x16 .f32 := Host.absf main_arg7
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S8192x16 .f32 := Host.absf main_arg8
  let main_cst_10 : FVec F S_ .f32 := constant S_ .f32 0x7F800000#32
  let main_v30 : FVec F S8192x16 .f32 := broadcastInDim S8192x16 ![] bcast_S_S8192x16 main_cst_10
  let main_v31 : IVec S8192x16 1 := cmpf .olt main_v29 main_v30
  let main_c_11 : IVec S_ 1 := constantI S_ 1 1#1
  let main_v32 : IVec S_ 1 := (fun x v => Host.reduce IntOp.andi x v reducesTo_S8192x16_S_d0_1 h_S_) main_v31 main_c_11
  let main_v33 : IVec S_ 1 := andi main_v28 main_v32
  fn_part2 (F := F) main_arg9 main_v33

def fn {F : FTy → Type} [FloatOps F] (main_arg0 : FVec F S8192x512 .f32) (main_arg1 : IVec S131072 32) (main_arg2 : IVec S131072 32) (main_arg3 : FVec F S131072 .f32) (main_arg4 : FVec F S512x32 .f32) (main_arg5 : FVec F S32x16 .f32) (main_arg6 : FVec F S32x16 .f32) (main_arg7 : FVec F S32x16 .f32) (main_arg8 : FVec F S8192x16 .f32) (main_arg9 : FVec F S8192x16 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S131072 .f32 := Host.absf main_arg3
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  let main_v9 : FVec F S512x32 .f32 := Host.absf main_arg4
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  let main_v14 : FVec F S32x16 .f32 := Host.absf main_arg5
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg6 main_arg7 main_arg8 main_arg9 main_v13 main_v16
-- ==== Kernel.lean ====
abbrev S8192x512 : Shape := ⟨2, ![8192, 512]⟩
abbrev S131072 : Shape := ⟨1, ![131072]⟩
abbrev S512x32 : Shape := ⟨2, ![512, 32]⟩
abbrev S32x16 : Shape := ⟨2, ![32, 16]⟩
abbrev S8192x16 : Shape := ⟨2, ![8192, 16]⟩
abbrev S8192x32 : Shape := ⟨2, ![8192, 32]⟩
abbrev S131072x1 : Shape := ⟨2, ![131072, 1]⟩
abbrev S_ : Shape := ⟨0, ![]⟩
abbrev S131072x32 : Shape := ⟨2, ![131072, 32]⟩
abbrev S131072x16 : Shape := ⟨2, ![131072, 16]⟩
abbrev S8192 : Shape := ⟨1, ![8192]⟩
abbrev S8192x1 : Shape := ⟨2, ![8192, 1]⟩
abbrev S8192x8192 : Shape := ⟨2, ![8192, 8192]⟩
abbrev S2048x1024 : Shape := ⟨2, ![2048, 1024]⟩
abbrev S2048x16 : Shape := ⟨2, ![2048, 16]⟩
abbrev S1024x16 : Shape := ⟨2, ![1024, 16]⟩
abbrev S67108864 : Shape := ⟨1, ![67108864]⟩

abbrev nBuf : Space → Nat
  | .hbm => 121
  | .vmem => 3
  | .smem => 0
  | _ => 0

abbrev bufTy : (tb : Table) → Fin (tcTables nBuf tb) → BufTy
  | .hbm, ⟨0, _⟩ => ⟨S8192x512, .f32⟩
  | .hbm, ⟨1, _⟩ => ⟨S131072, .i32⟩
  | .hbm, ⟨2, _⟩ => ⟨S131072, .i32⟩
  | .hbm, ⟨3, _⟩ => ⟨S131072, .f32⟩
  | .hbm, ⟨4, _⟩ => ⟨S512x32, .f32⟩
  | .hbm, ⟨5, _⟩ => ⟨S32x16, .f32⟩
  | .hbm, ⟨6, _⟩ => ⟨S32x16, .f32⟩
  | .hbm, ⟨7, _⟩ => ⟨S32x16, .f32⟩
  | .hbm, ⟨8, _⟩ => ⟨S8192x16, .f32⟩
  | .hbm, ⟨9, _⟩ => ⟨S8192x16, .f32⟩
  | .hbm, ⟨10, _⟩ => ⟨S8192x32, .f32⟩
  | .hbm, ⟨11, _⟩ => ⟨S131072x1, .f32⟩
  | .hbm, ⟨12, _⟩ => ⟨S_, .i32⟩
  | .hbm, ⟨13, _⟩ => ⟨S131072, .i32⟩
  | .hbm, ⟨14, _⟩ => ⟨S131072, .i1⟩
  | .hbm, ⟨15, _⟩ => ⟨S_, .i32⟩
  | .hbm, ⟨16, _⟩ => ⟨S131072, .i32⟩
  | .hbm, ⟨17, _⟩ => ⟨S131072, .i32⟩
  | .hbm, ⟨18, _⟩ => ⟨S131072, .i32⟩
  | .hbm, ⟨19, _⟩ => ⟨S131072x1, .i32⟩
  | .hbm, ⟨20, _⟩ => ⟨S131072x32, .f32⟩
  | .hbm, ⟨21, _⟩ => ⟨S131072x32, .f32⟩
  | .hbm, ⟨22, _⟩ => ⟨S131072x32, .f32⟩
  | .hbm, ⟨23, _⟩ => ⟨S_, .f32⟩
  | .hbm, ⟨24, _⟩ => ⟨S8192x32, .f32⟩
  | .hbm, ⟨25, _⟩ => ⟨S131072x1, .i32⟩
  | .hbm, ⟨26, _⟩ => ⟨S8192x32, .f32⟩
  | .hbm, ⟨27, _⟩ => ⟨S_, .f32⟩
  | .hbm, ⟨28, _⟩ => ⟨S8192x32, .f32⟩
  | .hbm, ⟨29, _⟩ => ⟨S8192x32, .f32⟩
  | .hbm, ⟨30, _⟩ => ⟨S8192x16, .f32⟩
  | .hbm, ⟨31, _⟩ => ⟨S131072x1, .f32⟩
  | .hbm, ⟨32, _⟩ => ⟨S_, .i32⟩
  | .hbm, ⟨33, _⟩ => ⟨S131072, .i32⟩
  | .hbm, ⟨34, _⟩ => ⟨S131072, .i1⟩
  | .hbm, ⟨35, _⟩ => ⟨S_, .i32⟩
  | .hbm, ⟨36, _⟩ => ⟨S131072, .i32⟩
  | .hbm, ⟨37, _⟩ => ⟨S131072, .i32⟩
  | .hbm, ⟨38, _⟩ => ⟨S131072, .i32⟩
  | .hbm, ⟨39, _⟩ => ⟨S131072x1, .i32⟩
  | .hbm, ⟨40, _⟩ => ⟨S131072x16, .f32⟩
  | .hbm, ⟨41, _⟩ => ⟨S131072x16, .f32⟩
  | .hbm, ⟨42, _⟩ => ⟨S131072x16, .f32⟩
  | .hbm, ⟨43, _⟩ => ⟨S_, .f32⟩
  | .hbm, ⟨44, _⟩ => ⟨S8192x16, .f32⟩
  | .hbm, ⟨45, _⟩ => ⟨S131072x1, .i32⟩
  | .hbm, ⟨46, _⟩ => ⟨S8192x16, .f32⟩
  | .hbm, ⟨47, _⟩ => ⟨S8192x16, .f32⟩
  | .hbm, ⟨48, _⟩ => ⟨S131072x1, .f32⟩
  | .hbm, ⟨49, _⟩ => ⟨S_, .i32⟩
  | .hbm, ⟨50, _⟩ => ⟨S131072, .i32⟩
  | .hbm, ⟨51, _⟩ => ⟨S131072, .i1⟩
  | .hbm, ⟨52, _⟩ => ⟨S_, .i32⟩
  | .hbm, ⟨53, _⟩ => ⟨S131072, .i32⟩
  | .hbm, ⟨54, _⟩ => ⟨S131072, .i32⟩
  | .hbm, ⟨55, _⟩ => ⟨S131072, .i32⟩
  | .hbm, ⟨56, _⟩ => ⟨S131072x1, .i32⟩
  | .hbm, ⟨57, _⟩ => ⟨S131072x16, .f32⟩
  | .hbm, ⟨58, _⟩ => ⟨S131072x16, .f32⟩
  | .hbm, ⟨59, _⟩ => ⟨S131072x16, .f32⟩
  | .hbm, ⟨60, _⟩ => ⟨S_, .f32⟩
  | .hbm, ⟨61, _⟩ => ⟨S8192x16, .f32⟩
  | .hbm, ⟨62, _⟩ => ⟨S131072x1, .i32⟩
  | .hbm, ⟨63, _⟩ => ⟨S8192x16, .f32⟩
  | .hbm, ⟨64, _⟩ => ⟨S_, .f32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S8192x1, .f32⟩
  | .hbm, ⟨70, _⟩ => ⟨S8192x16, .f32⟩
  | .hbm, ⟨71, _⟩ => ⟨S8192x16, .f32⟩
  | .hbm, ⟨72, _⟩ => ⟨S8192x16, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x16, .f32⟩
  | .hbm, ⟨77, _⟩ => ⟨S8192x16, .f32⟩
  | .hbm, ⟨78, _⟩ => ⟨S8192x16, .f32⟩
  | .hbm, ⟨79, _⟩ => ⟨S131072x1, .f32⟩
  | .hbm, ⟨80, _⟩ => ⟨S_, .i32⟩
  | .hbm, ⟨81, _⟩ => ⟨S131072, .i32⟩
  | .hbm, ⟨82, _⟩ => ⟨S131072, .i1⟩
  | .hbm, ⟨83, _⟩ => ⟨S_, .i32⟩
  | .hbm, ⟨84, _⟩ => ⟨S131072, .i32⟩
  | .hbm, ⟨85, _⟩ => ⟨S131072, .i32⟩
  | .hbm, ⟨86, _⟩ => ⟨S131072, .i32⟩
  | .hbm, ⟨87, _⟩ => ⟨S131072x1, .i32⟩
  | .hbm, ⟨88, _⟩ => ⟨S131072x16, .f32⟩
  | .hbm, ⟨89, _⟩ => ⟨S131072x16, .f32⟩
  | .hbm, ⟨90, _⟩ => ⟨S131072x16, .f32⟩
  | .hbm, ⟨91, _⟩ => ⟨S_, .f32⟩
  | .hbm, ⟨92, _⟩ => ⟨S8192x16, .f32⟩
  | .hbm, ⟨93, _⟩ => ⟨S131072x1, .i32⟩
  | .hbm, ⟨94, _⟩ => ⟨S8192x16, .f32⟩
  | .hbm, ⟨95, _⟩ => ⟨S_, .f32⟩
  | .hbm, ⟨96, _⟩ => ⟨S8192, .f32⟩
  | .hbm, ⟨97, _⟩ => ⟨S_, .f32⟩
  | .hbm, ⟨98, _⟩ => ⟨S8192, .f32⟩
  | .hbm, ⟨99, _⟩ => ⟨S8192, .f32⟩
  | .hbm, ⟨100, _⟩ => ⟨S8192x1, .f32⟩
  | .hbm, ⟨101, _⟩ => ⟨S8192x16, .f32⟩
  | .hbm, ⟨102, _⟩ => ⟨S8192x16, .f32⟩
  | .hbm, ⟨103, _⟩ => ⟨S8192x16, .f32⟩
  | .hbm, ⟨104, _⟩ => ⟨S_, .f32⟩
  | .hbm, ⟨105, _⟩ => ⟨S8192, .f32⟩
  | .hbm, ⟨106, _⟩ => ⟨S8192x1, .f32⟩
  | .hbm, ⟨107, _⟩ => ⟨S8192x16, .f32⟩
  | .hbm, ⟨108, _⟩ => ⟨S8192x16, .f32⟩
  | .hbm, ⟨109, _⟩ => ⟨S8192x16, .f32⟩
  | .hbm, ⟨110, _⟩ => ⟨S8192x16, .f32⟩
  | .hbm, ⟨111, _⟩ => ⟨S_, .f32⟩
  | .hbm, ⟨112, _⟩ => ⟨S8192x16, .f32⟩
  | .hbm, ⟨113, _⟩ => ⟨S8192x16, .f32⟩
  | .hbm, ⟨114, _⟩ => ⟨S8192x16, .f32⟩
  | .hbm, ⟨115, _⟩ => ⟨S8192x16, .f32⟩
  | .hbm, ⟨116, _⟩ => ⟨S8192x16, .f32⟩
  | .hbm, ⟨117, _⟩ => ⟨S8192x16, .f32⟩
  | .hbm, ⟨118, _⟩ => ⟨S8192x16, .bf16⟩
  | .hbm, ⟨119, _⟩ => ⟨S8192x8192, .f32⟩
  | .hbm, ⟨120, _⟩ => ⟨S67108864, .f32⟩
  | .local _ .vmem, ⟨0, _⟩ => ⟨S8192x16, .bf16⟩
  | .local _ .vmem, ⟨1, _⟩ => ⟨S2048x1024, .f32⟩
  | .local _ .vmem, ⟨2, _⟩ => ⟨S2048x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_cst : Ref sig .tc := ⟨.hbm, 27, rfl⟩
abbrev main_call0_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_c_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_12 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_13 : Ref sig .tc := ⟨.hbm, 95, rfl⟩
abbrev main_v68 : Ref sig .tc := ⟨.hbm, 96, rfl⟩
abbrev main_cst_14 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg0 : BitVec 32 := BitVec.ofNat 32 (i 0).val
  let c2048_i32 : BitVec 32 := 2048#32
  let v0 : BitVec 32 := Scalar.muli arg0 c2048_i32
  v0
def k0_mult2 (i : grid0.Coords) : BitVec 32 :=
  let arg1 : BitVec 32 := BitVec.ofNat 32 (i 1).val
  let c1024_i32 : BitVec 32 := 1024#32
  let v2 : BitVec 32 := Scalar.muli arg1 c1024_i32
  v2
def k0_off1 (i : grid0.Coords) : Fin 2 → Nat :=
  let arg0 : BitVec 32 := BitVec.ofNat 32 (i 0).val
  let c2048_i32 : BitVec 32 := 2048#32
  let v0 : BitVec 32 := Scalar.muli arg0 c2048_i32
  let v1 : BitVec 32 := v0
  let v4 : Index := Scalar.indexCast v1
  let c0 : Index := 0#32
  ![v4.toNat, 0]
def k0_off2 (i : grid0.Coords) : Fin 2 → Nat :=
  let arg1 : BitVec 32 := BitVec.ofNat 32 (i 1).val
  let c1024_i32 : BitVec 32 := 1024#32
  let v2 : BitVec 32 := Scalar.muli arg1 c1024_i32
  let v3 : BitVec 32 := v2
  let v7 : Index := Scalar.indexCast v3
  let c0_0 : Index := 0#32
  ![v7.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8192x16 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  bcast_S131072_S131072x1_0 : S131072.BroadcastsInDim S131072x1 (![0] : Fin 1 → Fin S131072x1.rank)
  bcast_S_S131072 : S_.BroadcastsInDim S131072 (![] : Fin 0 → Fin S131072.rank)
  bcast_S131072x1_S131072x32_0_1 : S131072x1.BroadcastsInDim S131072x32 (![0, 1] : Fin 2 → Fin S131072x32.rank)
  bcast_S_S8192x32 : S_.BroadcastsInDim S8192x32 (![] : Fin 0 → Fin S8192x32.rank)
  bcast_S131072x1_S131072x16_0_1 : S131072x1.BroadcastsInDim S131072x16 (![0, 1] : Fin 2 → Fin S131072x16.rank)
  bcast_S_S8192x16 : S_.BroadcastsInDim S8192x16 (![] : Fin 0 → Fin S8192x16.rank)
  reducesTo_S8192x16_S8192_d1 : S8192x16.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  bitsLt_bf16_f32 : FTy.bits .bf16 < FTy.bits .f32
  h_S2048x16 : 0 < S2048x16.numel
  shapeCasts_S2048x16_S2048x16 : S2048x16.ShapeCasts S2048x16
  h_S1024x16 : 0 < S1024x16.numel
  shapeCasts_S1024x16_S1024x16 : S1024x16.ShapeCasts S1024x16
  inb_S2048x1024_S2048x1024_0_0 : ∀ a, (![0, 0] : Fin 2 → Nat) a + S2048x1024.size a ≤ S2048x1024.size a
  h_S2048x1024 : 0 < S2048x1024.numel
  shapeCasts_S8192x8192_S67108864 : S8192x8192.ShapeCasts S67108864
  dot_S8192x512_S512x32_S8192x32_1_0_0_1_n_n_wf : DotDims.WF S8192x512 S512x32 S8192x32 [1] [0] [0] [1] [] []
  gather_S8192x32_S131072x1_S131072x32_1_0_n_n_0_1_132_wf : GatherDims.WF S8192x32 S131072x1 S131072x32 [1] [0] [] [0] [] 1 ![1, 32]
  scatter_S8192x32_S131072x1_S131072x32_1_0_0_1_wf : ScatterDims.WF S8192x32 S131072x1 S131072x32 [1] [0] [0] 1
  dot_S8192x32_S32x16_S8192x16_1_0_0_1_n_n_wf : DotDims.WF S8192x32 S32x16 S8192x16 [1] [0] [0] [1] [] []
  gather_S8192x16_S131072x1_S131072x16_1_0_n_n_0_1_116_wf : GatherDims.WF S8192x16 S131072x1 S131072x16 [1] [0] [] [0] [] 1 ![1, 16]
  scatter_S8192x16_S131072x1_S131072x16_1_0_0_1_wf : ScatterDims.WF S8192x16 S131072x1 S131072x16 [1] [0] [0] 1
  dot_S2048x16_S1024x16_S2048x1024_1_1_0_0_n_n_wf : DotDims.WF S2048x16 S1024x16 S2048x1024 [1] [1] [0] [0] [] []
  hrank0 : 0 < grid0.rank
  k0_mult1_dvd : ∀ i : grid0.Coords, 2048 ∣ (k0_mult1 i).toNat
  k0_mult2_dvd : ∀ i : grid0.Coords, 1024 ∣ (k0_mult2 i).toNat
  k0_off1_inb : ∀ i : grid0.Coords, ∀ a, (k0_off1 i) a + S2048x16.size a ≤ S8192x16.size a
  k0_off2_inb : ∀ i : grid0.Coords, ∀ a, (k0_off2 i) a + S1024x16.size a ≤ S8192x16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x16.size a ≤ S8192x16.size a
  hwx0_0 : ∀ i : grid0.Coords, EltTy.bits .bf16 = 32 ∨ (Rect.block (s := S8192x16) S8192x16.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x8192.size a
  hwx0_1 : ∀ i : grid0.Coords, EltTy.bits .f32 = 32 ∨ (Rect.block (s := S8192x8192) S2048x1024.size (cc0_transform_1 i) (hinb0_1 i)).WholeWords (EltTy.packing .f32)

variable [Facts₀]

def dot_S8192x512_S512x32_S8192x32_1_0_0_1_n_n : DotDims S8192x512 S512x32 S8192x32 where
  lhsContracting := [1]
  rhsContracting := [0]
  lhsNonContracting := [0]
  rhsNonContracting := [1]
  lhsBatch := []
  rhsBatch := []
  wf := dot_S8192x512_S512x32_S8192x32_1_0_0_1_n_n_wf
def gather_S8192x32_S131072x1_S131072x32_1_0_n_n_0_1_132 : GatherDims S8192x32 S131072x1 S131072x32 where
  offsetDims := [1]
  collapsedSliceDims := [0]
  operandBatchingDims := []
  startIndicesBatchingDims := []
  startIndexMap := [0]
  indexVectorDim := 1
  sliceSizes := ![1, 32]
  wf := gather_S8192x32_S131072x1_S131072x32_1_0_n_n_0_1_132_wf
def scatter_S8192x32_S131072x1_S131072x32_1_0_0_1 : ScatterDims S8192x32 S131072x1 S131072x32 where
  updateWindowDims := [1]
  insertedWindowDims := [0]
  scatterDimsToOperandDims := [0]
  indexVectorDim := 1
  wf := scatter_S8192x32_S131072x1_S131072x32_1_0_0_1_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def gather_S8192x16_S131072x1_S131072x16_1_0_n_n_0_1_116 : GatherDims S8192x16 S131072x1 S131072x16 where
  offsetDims := [1]
  collapsedSliceDims := [0]
  operandBatchingDims := []
  startIndicesBatchingDims := []
  startIndexMap := [0]
  indexVectorDim := 1
  sliceSizes := ![1, 16]
  wf := gather_S8192x16_S131072x1_S131072x16_1_0_n_n_0_1_116_wf
def scatter_S8192x16_S131072x1_S131072x16_1_0_0_1 : ScatterDims S8192x16 S131072x1 S131072x16 where
  updateWindowDims := [1]
  insertedWindowDims := [0]
  scatterDimsToOperandDims := [0]
  indexVectorDim := 1
  wf := scatter_S8192x16_S131072x1_S131072x16_1_0_0_1_wf
def dot_S2048x16_S1024x16_S2048x1024_1_1_0_0_n_n : DotDims S2048x16 S1024x16 S2048x1024 where
  lhsContracting := [1]
  rhsContracting := [1]
  lhsNonContracting := [0]
  rhsNonContracting := [0]
  lhsBatch := []
  rhsBatch := []
  wf := dot_S2048x16_S1024x16_S2048x1024_1_1_0_0_n_n_wf

abbrev win0_0 : Pipeline.Window sig grid0 :=
  Pipeline.Window.ofSpec (Memref.whole main_v87) S8192x16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v88) S2048x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x512 : Shape := ⟨2, ![8192, 512]⟩
abbrev S131072 : Shape := ⟨1, ![131072]⟩
abbrev S512x32 : Shape := ⟨2, ![512, 32]⟩
abbrev S32x16 : Shape := ⟨2, ![32, 16]⟩
abbrev S8192x16 : Shape := ⟨2, ![8192, 16]⟩
abbrev S8192x32 : Shape := ⟨2, ![8192, 32]⟩
abbrev S131072x1 : Shape := ⟨2, ![131072, 1]⟩
abbrev S_ : Shape := ⟨0, ![]⟩
abbrev S131072x32 : Shape := ⟨2, ![131072, 32]⟩
abbrev S131072x16 : Shape := ⟨2, ![131072, 16]⟩
abbrev S8192 : Shape := ⟨1, ![8192]⟩
abbrev S8192x1 : Shape := ⟨2, ![8192, 1]⟩
abbrev S16x8192 : Shape := ⟨2, ![16, 8192]⟩
abbrev S8192x8192 : Shape := ⟨2, ![8192, 8192]⟩
abbrev S67108864 : Shape := ⟨1, ![67108864]⟩

abbrev nBuf : Space → Nat
  | .hbm => 121
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S131072, .i32⟩
  | .hbm, ⟨2, _⟩ => ⟨S131072, .i32⟩
  | .hbm, ⟨3, _⟩ => ⟨S131072, .f32⟩
  | .hbm, ⟨4, _⟩ => ⟨S512x32, .f32⟩
  | .hbm, ⟨5, _⟩ => ⟨S32x16, .f32⟩
  | .hbm, ⟨6, _⟩ => ⟨S32x16, .f32⟩
  | .hbm, ⟨7, _⟩ => ⟨S32x16, .f32⟩
  | .hbm, ⟨8, _⟩ => ⟨S8192x16, .f32⟩
  | .hbm, ⟨9, _⟩ => ⟨S8192x16, .f32⟩
  | .hbm, ⟨10, _⟩ => ⟨S8192x32, .f32⟩
  | .hbm, ⟨11, _⟩ => ⟨S131072x1, .f32⟩
  | .hbm, ⟨12, _⟩ => ⟨S_, .i32⟩
  | .hbm, ⟨13, _⟩ => ⟨S131072, .i32⟩
  | .hbm, ⟨14, _⟩ => ⟨S131072, .i1⟩
  | .hbm, ⟨15, _⟩ => ⟨S_, .i32⟩
  | .hbm, ⟨16, _⟩ => ⟨S131072, .i32⟩
  | .hbm, ⟨17, _⟩ => ⟨S131072, .i32⟩
  | .hbm, ⟨18, _⟩ => ⟨S131072, .i32⟩
  | .hbm, ⟨19, _⟩ => ⟨S131072x1, .i32⟩
  | .hbm, ⟨20, _⟩ => ⟨S131072x32, .f32⟩
  | .hbm, ⟨21, _⟩ => ⟨S131072x32, .f32⟩
  | .hbm, ⟨22, _⟩ => ⟨S131072x32, .f32⟩
  | .hbm, ⟨23, _⟩ => ⟨S_, .f32⟩
  | .hbm, ⟨24, _⟩ => ⟨S8192x32, .f32⟩
  | .hbm, ⟨25, _⟩ => ⟨S131072x1, .i32⟩
  | .hbm, ⟨26, _⟩ => ⟨S8192x32, .f32⟩
  | .hbm, ⟨27, _⟩ => ⟨S_, .f32⟩
  | .hbm, ⟨28, _⟩ => ⟨S8192x32, .f32⟩
  | .hbm, ⟨29, _⟩ => ⟨S8192x32, .f32⟩
  | .hbm, ⟨30, _⟩ => ⟨S8192x16, .f32⟩
  | .hbm, ⟨31, _⟩ => ⟨S131072x1, .f32⟩
  | .hbm, ⟨32, _⟩ => ⟨S_, .i32⟩
  | .hbm, ⟨33, _⟩ => ⟨S131072, .i32⟩
  | .hbm, ⟨34, _⟩ => ⟨S131072, .i1⟩
  | .hbm, ⟨35, _⟩ => ⟨S_, .i32⟩
  | .hbm, ⟨36, _⟩ => ⟨S131072, .i32⟩
  | .hbm, ⟨37, _⟩ => ⟨S131072, .i32⟩
  | .hbm, ⟨38, _⟩ => ⟨S131072, .i32⟩
  | .hbm, ⟨39, _⟩ => ⟨S131072x1, .i32⟩
  | .hbm, ⟨40, _⟩ => ⟨S131072x16, .f32⟩
  | .hbm, ⟨41, _⟩ => ⟨S131072x16, .f32⟩
  | .hbm, ⟨42, _⟩ => ⟨S131072x16, .f32⟩
  | .hbm, ⟨43, _⟩ => ⟨S_, .f32⟩
  | .hbm, ⟨44, _⟩ => ⟨S8192x16, .f32⟩
  | .hbm, ⟨45, _⟩ => ⟨S131072x1, .i32⟩
  | .hbm, ⟨46, _⟩ => ⟨S8192x16, .f32⟩
  | .hbm, ⟨47, _⟩ => ⟨S8192x16, .f32⟩
  | .hbm, ⟨48, _⟩ => ⟨S131072x1, .f32⟩
  | .hbm, ⟨49, _⟩ => ⟨S_, .i32⟩
  | .hbm, ⟨50, _⟩ => ⟨S131072, .i32⟩
  | .hbm, ⟨51, _⟩ => ⟨S131072, .i1⟩
  | .hbm, ⟨52, _⟩ => ⟨S_, .i32⟩
  | .hbm, ⟨53, _⟩ => ⟨S131072, .i32⟩
  | .hbm, ⟨54, _⟩ => ⟨S131072, .i32⟩
  | .hbm, ⟨55, _⟩ => ⟨S131072, .i32⟩
  | .hbm, ⟨56, _⟩ => ⟨S131072x1, .i32⟩
  | .hbm, ⟨57, _⟩ => ⟨S131072x16, .f32⟩
  | .hbm, ⟨58, _⟩ => ⟨S131072x16, .f32⟩
  | .hbm, ⟨59, _⟩ => ⟨S131072x16, .f32⟩
  | .hbm, ⟨60, _⟩ => ⟨S_, .f32⟩
  | .hbm, ⟨61, _⟩ => ⟨S8192x16, .f32⟩
  | .hbm, ⟨62, _⟩ => ⟨S131072x1, .i32⟩
  | .hbm, ⟨63, _⟩ => ⟨S8192x16, .f32⟩
  | .hbm, ⟨64, _⟩ => ⟨S_, .f32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S8192x1, .f32⟩
  | .hbm, ⟨70, _⟩ => ⟨S8192x16, .f32⟩
  | .hbm, ⟨71, _⟩ => ⟨S8192x16, .f32⟩
  | .hbm, ⟨72, _⟩ => ⟨S8192x16, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x16, .f32⟩
  | .hbm, ⟨77, _⟩ => ⟨S8192x16, .f32⟩
  | .hbm, ⟨78, _⟩ => ⟨S8192x16, .f32⟩
  | .hbm, ⟨79, _⟩ => ⟨S131072x1, .f32⟩
  | .hbm, ⟨80, _⟩ => ⟨S_, .i32⟩
  | .hbm, ⟨81, _⟩ => ⟨S131072, .i32⟩
  | .hbm, ⟨82, _⟩ => ⟨S131072, .i1⟩
  | .hbm, ⟨83, _⟩ => ⟨S_, .i32⟩
  | .hbm, ⟨84, _⟩ => ⟨S131072, .i32⟩
  | .hbm, ⟨85, _⟩ => ⟨S131072, .i32⟩
  | .hbm, ⟨86, _⟩ => ⟨S131072, .i32⟩
  | .hbm, ⟨87, _⟩ => ⟨S131072x1, .i32⟩
  | .hbm, ⟨88, _⟩ => ⟨S131072x16, .f32⟩
  | .hbm, ⟨89, _⟩ => ⟨S131072x16, .f32⟩
  | .hbm, ⟨90, _⟩ => ⟨S131072x16, .f32⟩
  | .hbm, ⟨91, _⟩ => ⟨S_, .f32⟩
  | .hbm, ⟨92, _⟩ => ⟨S8192x16, .f32⟩
  | .hbm, ⟨93, _⟩ => ⟨S131072x1, .i32⟩
  | .hbm, ⟨94, _⟩ => ⟨S8192x16, .f32⟩
  | .hbm, ⟨95, _⟩ => ⟨S_, .f32⟩
  | .hbm, ⟨96, _⟩ => ⟨S8192, .f32⟩
  | .hbm, ⟨97, _⟩ => ⟨S_, .f32⟩
  | .hbm, ⟨98, _⟩ => ⟨S8192, .f32⟩
  | .hbm, ⟨99, _⟩ => ⟨S8192, .f32⟩
  | .hbm, ⟨100, _⟩ => ⟨S8192x1, .f32⟩
  | .hbm, ⟨101, _⟩ => ⟨S8192x16, .f32⟩
  | .hbm, ⟨102, _⟩ => ⟨S8192x16, .f32⟩
  | .hbm, ⟨103, _⟩ => ⟨S8192x16, .f32⟩
  | .hbm, ⟨104, _⟩ => ⟨S_, .f32⟩
  | .hbm, ⟨105, _⟩ => ⟨S8192, .f32⟩
  | .hbm, ⟨106, _⟩ => ⟨S8192x1, .f32⟩
  | .hbm, ⟨107, _⟩ => ⟨S8192x16, .f32⟩
  | .hbm, ⟨108, _⟩ => ⟨S8192x16, .f32⟩
  | .hbm, ⟨109, _⟩ => ⟨S8192x16, .f32⟩
  | .hbm, ⟨110, _⟩ => ⟨S8192x16, .f32⟩
  | .hbm, ⟨111, _⟩ => ⟨S_, .f32⟩
  | .hbm, ⟨112, _⟩ => ⟨S8192x16, .f32⟩
  | .hbm, ⟨113, _⟩ => ⟨S8192x16, .f32⟩
  | .hbm, ⟨114, _⟩ => ⟨S8192x16, .f32⟩
  | .hbm, ⟨115, _⟩ => ⟨S8192x16, .f32⟩
  | .hbm, ⟨116, _⟩ => ⟨S8192x16, .f32⟩
  | .hbm, ⟨117, _⟩ => ⟨S8192x16, .f32⟩
  | .hbm, ⟨118, _⟩ => ⟨S16x8192, .f32⟩
  | .hbm, ⟨119, _⟩ => ⟨S8192x8192, .f32⟩
  | .hbm, ⟨120, _⟩ => ⟨S67108864, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_cst : Ref sig .tc := ⟨.hbm, 27, rfl⟩
abbrev main_call0_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_c_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_12 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_13 : Ref sig .tc := ⟨.hbm, 95, rfl⟩
abbrev main_v68 : Ref sig .tc := ⟨.hbm, 96, rfl⟩
abbrev main_cst_14 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩

abbrev nD : Nat := 1
abbrev τ : Topo := Topo.v7x

variable {F : FTy → Type} [FloatOps F]

class Facts₀ : Prop where
  bcast_S131072_S131072x1_0 : S131072.BroadcastsInDim S131072x1 (![0] : Fin 1 → Fin S131072x1.rank)
  bcast_S_S131072 : S_.BroadcastsInDim S131072 (![] : Fin 0 → Fin S131072.rank)
  bcast_S131072x1_S131072x32_0_1 : S131072x1.BroadcastsInDim S131072x32 (![0, 1] : Fin 2 → Fin S131072x32.rank)
  bcast_S_S8192x32 : S_.BroadcastsInDim S8192x32 (![] : Fin 0 → Fin S8192x32.rank)
  bcast_S131072x1_S131072x16_0_1 : S131072x1.BroadcastsInDim S131072x16 (![0, 1] : Fin 2 → Fin S131072x16.rank)
  bcast_S_S8192x16 : S_.BroadcastsInDim S8192x16 (![] : Fin 0 → Fin S8192x16.rank)
  reducesTo_S8192x16_S8192_d1 : S8192x16.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  transposes_S8192x16_S16x8192_1_0 : S8192x16.Transposes [1, 0] S16x8192
  shapeCasts_S8192x8192_S67108864 : S8192x8192.ShapeCasts S67108864
  dot_S8192x512_S512x32_S8192x32_1_0_0_1_n_n_wf : DotDims.WF S8192x512 S512x32 S8192x32 [1] [0] [0] [1] [] []
  gather_S8192x32_S131072x1_S131072x32_1_0_n_n_0_1_132_wf : GatherDims.WF S8192x32 S131072x1 S131072x32 [1] [0] [] [0] [] 1 ![1, 32]
  scatter_S8192x32_S131072x1_S131072x32_1_0_0_1_wf : ScatterDims.WF S8192x32 S131072x1 S131072x32 [1] [0] [0] 1
  dot_S8192x32_S32x16_S8192x16_1_0_0_1_n_n_wf : DotDims.WF S8192x32 S32x16 S8192x16 [1] [0] [0] [1] [] []
  gather_S8192x16_S131072x1_S131072x16_1_0_n_n_0_1_116_wf : GatherDims.WF S8192x16 S131072x1 S131072x16 [1] [0] [] [0] [] 1 ![1, 16]
  scatter_S8192x16_S131072x1_S131072x16_1_0_0_1_wf : ScatterDims.WF S8192x16 S131072x1 S131072x16 [1] [0] [0] 1
  dot_S8192x16_S16x8192_S8192x8192_1_0_0_1_n_n_wf : DotDims.WF S8192x16 S16x8192 S8192x8192 [1] [0] [0] [1] [] []

variable [Facts₀]

def dot_S8192x512_S512x32_S8192x32_1_0_0_1_n_n : DotDims S8192x512 S512x32 S8192x32 where
  lhsContracting := [1]
  rhsContracting := [0]
  lhsNonContracting := [0]
  rhsNonContracting := [1]
  lhsBatch := []
  rhsBatch := []
  wf := dot_S8192x512_S512x32_S8192x32_1_0_0_1_n_n_wf
def gather_S8192x32_S131072x1_S131072x32_1_0_n_n_0_1_132 : GatherDims S8192x32 S131072x1 S131072x32 where
  offsetDims := [1]
  collapsedSliceDims := [0]
  operandBatchingDims := []
  startIndicesBatchingDims := []
  startIndexMap := [0]
  indexVectorDim := 1
  sliceSizes := ![1, 32]
  wf := gather_S8192x32_S131072x1_S131072x32_1_0_n_n_0_1_132_wf
def scatter_S8192x32_S131072x1_S131072x32_1_0_0_1 : ScatterDims S8192x32 S131072x1 S131072x32 where
  updateWindowDims := [1]
  insertedWindowDims := [0]
  scatterDimsToOperandDims := [0]
  indexVectorDim := 1
  wf := scatter_S8192x32_S131072x1_S131072x32_1_0_0_1_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def gather_S8192x16_S131072x1_S131072x16_1_0_n_n_0_1_116 : GatherDims S8192x16 S131072x1 S131072x16 where
  offsetDims := [1]
  collapsedSliceDims := [0]
  operandBatchingDims := []
  startIndicesBatchingDims := []
  startIndexMap := [0]
  indexVectorDim := 1
  sliceSizes := ![1, 16]
  wf := gather_S8192x16_S131072x1_S131072x16_1_0_n_n_0_1_116_wf
def scatter_S8192x16_S131072x1_S131072x16_1_0_0_1 : ScatterDims S8192x16 S131072x1 S131072x16 where
  updateWindowDims := [1]
  insertedWindowDims := [0]
  scatterDimsToOperandDims := [0]
  indexVectorDim := 1
  wf := scatter_S8192x16_S131072x1_S131072x16_1_0_0_1_wf
def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf

class Facts : Prop extends Facts₀ where

variable [Facts]
-- ==== Proof.LibTransposedDot.lean ====
/-
  A matrix product whose right operand is contracted on its LAST axis, read at an index, at the ideal instance.

  For the dimension numbers "rows × contraction times columns × contraction" (`DotDims.transposedRhs M K N`: the
  product x · yᵀ written without a transpose) both the vector unit's matmul into a zero accumulator and the host's
  dot_general are, at output index (a, b), the sum over k of l (a, k) · r (b, k) on the extended reals. The sum over
  the one-axis contraction index is re-indexed by its one coordinate.
-/
import Idealize.ShloMosaic.PureOps.Ideal.Laws
import Idealize.ShloMosaic.Lib.ValueIdx

noncomputable section

open scoped BigOperators

namespace Idealize.ShloMosaic.TransposedDot

open Idealize.ShloMosaic Idealize.ShloMosaic.ValueIdx

theorem lhs0 (M K N : Nat) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
theorem lhs1 (M K N : Nat) (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q
theorem rhs0 (M K N : Nat) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl
theorem rhs1 (M K N : Nat) (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The contraction sum of such a product at (a, b), over the coordinate `k : Fin K`. -/
theorem sum_transposedRhs (M K N : Nat) {φ₁ φ₂ : FTy} (l : FVec Ideal ⟨2, ![M, K]⟩ φ₁) (r : FVec Ideal ⟨2, ![N, K]⟩ φ₂)
    (a : Fin M) (b : Fin N) :
    ∑ k : (DotDims.transposedRhs M K N).contr.Idx,
        l ((DotDims.transposedRhs M K N).lhsIdx (ix2 a b) k) * r ((DotDims.transposedRhs M K N).rhsIdx (ix2 a b) k)
      = ∑ k : Fin K, l (ix2 a k) * r (ix2 b k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 a b) ((contrEquiv1 (DotDims.transposedRhs M K N) K rfl rfl).symm k) = ix2 a k :=
    funext fun d => Fin.ext (by
      match d with
      | ⟨0, _⟩ => exact lhs0 M K N _ _
      | ⟨1, _⟩ => exact (lhs1 M K N _ _).trans hk)
  have er : (DotDims.transposedRhs M K N).rhsIdx (ix2 a b) ((contrEquiv1 (DotDims.transposedRhs M K N) K rfl rfl).symm k) = ix2 b k :=
    funext fun d => Fin.ext (by
      match d with
      | ⟨0, _⟩ => exact rhs0 M K N _ _
      | ⟨1, _⟩ => exact (rhs1 M K N _ _).trans hk)
  rw [el, er]

/-- The vector unit's matmul into the zero accumulator, at (a, b). -/
theorem matmul_transposedRhs {M K N : Nat} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (a : Fin M) (b : Fin N) :
    matmul D prec l r (constant ⟨2, ![M, N]⟩ .f32 0x00000000#32) (ix2 a b) = ∑ k : Fin K, l (ix2 a k) * r (ix2 b k) := by
  subst hD
  exact (Ideal.matmul_constant_zero_apply _ prec l r (ix2 a b)).trans (sum_transposedRhs M K N l r a b)

/-- The host's dot_general, at (a, b). -/
theorem dotGeneral_transposedRhs {M K N : Nat} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (a : Fin M) (b : Fin N) :
    Host.dotGeneral (F := Ideal) D prec l r (ix2 a b) = ∑ k : Fin K, l (ix2 a k) * r (ix2 b k) := by
  subst hD
  simp only [Host.dotGeneral]
  exact (Ideal.dotGeneral_apply _ prec _ l r (ix2 a b)).trans (sum_transposedRhs M K N l r a b)

end Idealize.ShloMosaic.TransposedDot

end
-- ==== Proof.Block.lean ====
/-
  One grid point of the decoder. At grid point (i, j) the body loads two row slices of the staged 8192 × 16 array —
  2048 rows from row 2048·i and 1024 rows from row 1024·j —, multiplies the first by the transpose of the second
  into a zero accumulator, and stores the 2048 × 1024 product over its whole output block. So the block it leaves
  is, at (p, q), the inner product Σ_k x (o₁ + p, k) · x (o₂ + q, k) of two rows of the staged array, o₁ and o₂ the
  slices' first rows.
-/
import proofs.«124466_j63110249447564_2_alg».proof.Proof.Gen.KernelIdeal.Frame
import proofs.«124466_j63110249447564_2_alg».proof.Proof.LibTransposedDot
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx

namespace Cert.KernelIdeal.Block

open Cert.KernelIdeal Cert.KernelIdeal.Gen

variable {F : FTy → Type} [FloatOps F]

theorem hz : (![0, 0] : Fin 2 → Nat) = fun _ => 0 := funext fun a => by fin_cases a <;> rfl

/-- What the body leaves in its output block: the one store covers the block, and its payload is the product of the
    two row slices loaded from the staged array `x0`. -/
theorem out_A (c : Dev nD) (i : grid0.Coords) (a2 : Memref sig .tc .vmem S8192x16 .bf16) (h2 : a2.IsWhole)
    (a3 : Memref sig .tc .vmem S2048x1024 .f32) (h3 : a3.IsWhole) (x0 : Vec F S8192x16 .bf16) :
    out0_A_1 c i a2 h2 a3 h3 x0
      = k0_pay1 (View.ld x0 (Rect.unit (s := S8192x16) (k0_off1 i) S2048x16.size (k0_off1_inb i)))
          (View.ld x0 (Rect.unit (s := S8192x16) (k0_off2 i) S1024x16.size (k0_off2_inb i))) := by
  unfold out0_A_1
  rw [View.read_writes_eq_canon _ _ _ (cover0_A_1 c i a2 h2 a3 h3 x0)]
  unfold kernelRun0_A
  dsimp only
  rw [View.canon_unit_zero hz]
  simp only [View.readAt_eq_ld, h2.read_unread]

/-- A row slice of `x` starting at row `o 0`, column `o 1 = 0`, read at (p, k), is `x` at (o 0 + p, k). -/
theorem ld_rows {n : Nat} (x : Vec Ideal S8192x16 .bf16) (o : Fin 2 → Nat)
    (inb : ∀ a, o a + (⟨2, ![n, 16]⟩ : Shape).size a ≤ S8192x16.size a) (h1 : o 1 = 0) (p : Fin n) (k : Fin 16)
    (a : Fin 8192) (ha : a.val = o 0 + p.val) :
    View.ld x (Rect.unit (s := S8192x16) o (⟨2, ![n, 16]⟩ : Shape).size inb) (ix2 p k) = x (ix2 a k) := by
  show x ((Rect.unit (s := S8192x16) o (⟨2, ![n, 16]⟩ : Shape).size inb).idx (ix2 p k)) = _
  refine congrArg x (funext fun d => Fin.ext ?_)
  match d with
  | ⟨0, _⟩ => show o 0 + 1 * p.val = a.val; omega
  | ⟨1, _⟩ => show o 1 + 1 * k.val = k.val; omega

/-- The block at (p, q): the inner product of rows `a = o₁ + p` and `b = o₂ + q` of the staged array. -/
theorem pay_at (x : Vec Ideal S8192x16 .bf16) (o1 o2 : Fin 2 → Nat)
    (inb1 : ∀ a, o1 a + S2048x16.size a ≤ S8192x16.size a) (inb2 : ∀ a, o2 a + S1024x16.size a ≤ S8192x16.size a)
    (h1 : o1 1 = 0) (h2 : o2 1 = 0) (y : S2048x1024.Idx) (a b : Fin 8192)
    (ha : a.val = o1 0 + (y 0).val) (hb : b.val = o2 0 + (y 1).val) :
    k0_pay1 (F := Ideal) (View.ld x (Rect.unit (s := S8192x16) o1 S2048x16.size inb1))
        (View.ld x (Rect.unit (s := S8192x16) o2 S1024x16.size inb2)) y
      = ∑ k : Fin 16, x (ix2 a k) * x (ix2 b k) := by
  obtain ⟨p, q, rfl⟩ : ∃ (p : Fin 2048) (q : Fin 1024), y = ix2 p q := ⟨y 0, y 1, eq_ix2 y⟩
  unfold k0_pay1
  simp only [shapeCast_self]
  refine (TransposedDot.matmul_transposedRhs (M := 2048) (K := 16) (N := 1024) (φ₁ := .bf16) (φ₂ := .bf16)
    dot_S2048x16_S1024x16_S2048x1024_1_1_0_0_n_n rfl none
    (View.ld x (Rect.unit (s := S8192x16) o1 S2048x16.size inb1))
    (View.ld x (Rect.unit (s := S8192x16) o2 S1024x16.size inb2)) p q).trans ?_
  refine Finset.sum_congr rfl fun k _ => ?_
  rw [ld_rows (n := 2048) x o1 inb1 h1 p k a ha, ld_rows (n := 1024) x o2 inb2 h2 q k b hb]

end Cert.KernelIdeal.Block

end
-- ==== Proof.Gram.lean ====
/-
  The decoder's value, stated once for both programs: for an array Z of 8192 rows of 16 extended reals, the
  8192 × 8192 array of inner products of its rows, G (a, b) = Σ_k Z (a, k) · Z (b, k), and the same array laid out
  flat, row after row: position a · 8192 + b holds G (a, b).
-/
import Idealize.ShloMosaic.PureOps.Ideal.Laws
import Idealize.ShloMosaic.Lib.ValueIdx
import Idealize.ShloMosaic.Lib.Pipeline.Value

noncomputable section

open scoped BigOperators

namespace Cert.Gram

open Idealize.ShloMosaic Idealize.ShloMosaic.ValueIdx

/-- The inner products of the rows of `Z`: entry (a, b) is Σ_k Z (a, k) · Z (b, k). -/
def gram (Z : (⟨2, ![8192, 16]⟩ : Shape).Idx → EReal) : (⟨2, ![8192, 8192]⟩ : Shape).Idx → EReal :=
  fun i => ∑ k : Fin 16, Z (ix2 (i 0) k) * Z (ix2 (i 1) k)

theorem gram_apply (Z : (⟨2, ![8192, 16]⟩ : Shape).Idx → EReal) (a b : Fin 8192) :
    gram Z (ix2 a b) = ∑ k : Fin 16, Z (ix2 a k) * Z (ix2 b k) := rfl

/-- The same array flattened in row-major order. -/
def gramFlat (Z : (⟨2, ![8192, 16]⟩ : Shape).Idx → EReal)
    (h : (⟨2, ![8192, 8192]⟩ : Shape).ShapeCasts ⟨1, ![67108864]⟩) : (⟨1, ![67108864]⟩ : Shape).Idx → EReal :=
  shapeCast ⟨1, ![67108864]⟩ (gram Z) h

end Cert.Gram

end
-- ==== Proof.KernelArray.lean ====
/-
  The decoder's output array after the launch. The grid is 4 × 8; point (i, j) writes back block (i, j) of the
  8192 × 8192 output, 2048 × 1024 entries, and reads the whole staged 8192 × 16 array Z (its one block). Block
  (i, j) at (p, q) is the inner product of rows 2048·i + p and 1024·j + q of Z, which is entry
  (2048·i + p, 1024·j + q) of the array of all inner products of rows of Z; the 32 blocks tile the output, so the
  output array ends as that array.
-/
import proofs.«124466_j63110249447564_2_alg».proof.Proof.Block
import proofs.«124466_j63110249447564_2_alg».proof.Proof.Gram

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Array

open Cert.KernelIdeal Cert.KernelIdeal.Gen

variable (m : (ℓ : Loc nD τ sig) → Buf (Elt Ideal) ℓ) (ρ : Dev nD → PrngReg)

/-- The printed index maps and slice offsets, decided once over the 32 grid points: the input's block index is
    (0, 0); the two slices start at rows 2048·i and 1024·j, column 0, where (i, j) is the output's block index. -/
theorem idx_facts : ∀ t : Fin cfg0.N,
    win0_0.index t (0 : Fin 2) = 0 ∧ win0_0.index t (1 : Fin 2) = 0
    ∧ k0_off1 (grid0.coords t) (0 : Fin 2) = win0_1.index t (0 : Fin 2) * 2048 ∧ k0_off1 (grid0.coords t) (1 : Fin 2) = 0
    ∧ k0_off2 (grid0.coords t) (0 : Fin 2) = win0_1.index t (1 : Fin 2) * 1024 ∧ k0_off2 (grid0.coords t) (1 : Fin 2) = 0
    ∧ win0_1.index t (0 : Fin 2) ≤ 3 ∧ win0_1.index t (1 : Fin 2) ≤ 7 :=
  (by decide +kernel : ∀ t : Fin grid0.N, _)

/-- Every block of the output is some point's. -/
theorem idx_onto : ∀ (q0 : Fin 4) (q1 : Fin 8), ∃ t : Fin cfg0.N, win0_1.index t = ![q0.val, q1.val] :=
  (by decide +kernel : ∀ (q0 : Fin 4) (q1 : Fin 8), ∃ t : Fin grid0.N, win0_1.index t = ![q0.val, q1.val])

/-- The input window's one block is the whole staged array. -/
theorem iblk_eq (c : Dev nD) (t : Fin cfg0.N) : (iblk m c 0 t : Vec Ideal S8192x16 .bf16) = V m c main_v87 := by
  obtain ⟨e0, e1, -⟩ := idx_facts t
  funext y
  unfold iblk
  rw [View.read_apply]
  show V m c main_v87 _ = V m c main_v87 y
  congr 1
  funext a
  apply Fin.ext
  match a with
  | ⟨0, _⟩ => show win0_0.index t (0 : Fin 2) * 8192 + 1 * (y 0).val = (y 0).val; rw [e0]; omega
  | ⟨1, _⟩ => show win0_0.index t (1 : Fin 2) * 16 + 1 * (y 1).val = (y 1).val; rw [e1]; omega

/-- What point `t` writes back is block `t` of the array of inner products of the staged array's rows. -/
theorem flushed_eq (c : Dev nD) (t : Fin cfg0.N) :
    (dats m 0 c).flushed 1 t = ((cfg0.win 1).blk t).view.read (Elt Ideal) (Cert.Gram.gram (V m c main_v87)) := by
  show (cfg0.win 1).cut (grid0.coords t) ((dats m 0 c).after 1 t) = _
  rw [after0_1]
  unfold outsAt0
  rw [Block.out_A (F := Ideal) c (grid0.coords t) (ms0_0 t) (hs0_0 t) (ms0_1 t) (hs0_1 t) (iblk m c 0 t), iblk_eq m c t]
  obtain ⟨-, -, e2, e3, e4, e5, e6, e7⟩ := idx_facts t
  funext j
  show k0_pay1 (F := Ideal) (View.ld (V m c main_v87) (Rect.unit (s := S8192x16) (k0_off1 (grid0.coords t)) S2048x16.size (k0_off1_inb (grid0.coords t))))
      (View.ld (V m c main_v87) (Rect.unit (s := S8192x16) (k0_off2 (grid0.coords t)) S1024x16.size (k0_off2_inb (grid0.coords t)))) j
    = Cert.Gram.gram (V m c main_v87) (((cfg0.win 1).blk t).view.emb j)
  have hj0 : (j 0).val < 2048 := (j 0).isLt
  have hj1 : (j 1).val < 1024 := (j 1).isLt
  have ea : (⟨win0_1.index t (0 : Fin 2) * 2048 + (j 0).val, by omega⟩ : Fin 8192) = (((cfg0.win 1).blk t).view.emb j) 0 :=
    Fin.ext (by show win0_1.index t (0 : Fin 2) * 2048 + (j 0).val = win0_1.index t (0 : Fin 2) * 2048 + 1 * (j 0).val; omega)
  have eb : (⟨win0_1.index t (1 : Fin 2) * 1024 + (j 1).val, by omega⟩ : Fin 8192) = (((cfg0.win 1).blk t).view.emb j) 1 :=
    Fin.ext (by show win0_1.index t (1 : Fin 2) * 1024 + (j 1).val = win0_1.index t (1 : Fin 2) * 1024 + 1 * (j 1).val; omega)
  refine (Block.pay_at (V m c main_v87) (k0_off1 (grid0.coords t)) (k0_off2 (grid0.coords t))
    (k0_off1_inb (grid0.coords t)) (k0_off2_inb (grid0.coords t)) e3 e5 j
    ⟨win0_1.index t (0 : Fin 2) * 2048 + (j 0).val, by omega⟩ ⟨win0_1.index t (1 : Fin 2) * 1024 + (j 1).val, by omega⟩
    (by show _ = k0_off1 (grid0.coords t) (0 : Fin 2) + (j 0).val; rw [e2])
    (by show _ = k0_off2 (grid0.coords t) (0 : Fin 2) + (j 1).val; rw [e4])).trans ?_
  rw [ea, eb]
  rfl

/-- An index of the output is in point `t`'s block iff each coordinate is in the block's range on its axis. -/
theorem mem_blk (t : Fin cfg0.N) (i : S8192x8192.Idx) :
    i ∈ ((cfg0.win 1).blk t).view.set ↔ ∀ a : Fin 2, win0_1.index t a * S2048x1024.size a ≤ (i a).val ∧ (i a).val < win0_1.index t a * S2048x1024.size a + S2048x1024.size a := by
  show i ∈ ((View.whole main_v88).slice (win0_1.rect t)).set ↔ _
  rw [View.set_slice_whole, Rect.mem_set_unit]
  exact Iff.rfl

/-- The blocks tile the output: entry (a, b) is in the block of the point whose block index is (a / 2048, b / 1024). -/
theorem cover (i : S8192x8192.Idx) : ∃ t : Fin cfg0.N, (cfg0.win 1).flush t = true ∧ i ∈ ((cfg0.win 1).blk t).view.set := by
  have hi0 : (i 0).val < 8192 := (i 0).isLt
  have hi1 : (i 1).val < 8192 := (i 1).isLt
  obtain ⟨t, ht⟩ := idx_onto ⟨(i 0).val / 2048, by omega⟩ ⟨(i 1).val / 1024, by omega⟩
  have q0 : win0_1.index t (0 : Fin 2) = (i 0).val / 2048 := congrFun ht 0
  have q1 : win0_1.index t (1 : Fin 2) = (i 1).val / 1024 := congrFun ht 1
  refine ⟨t, flush0_1 t, ?_⟩
  rw [mem_blk]
  intro a
  match a with
  | ⟨0, _⟩ => show win0_1.index t (0 : Fin 2) * 2048 ≤ (i 0).val ∧ (i 0).val < win0_1.index t (0 : Fin 2) * 2048 + 2048; omega
  | ⟨1, _⟩ => show win0_1.index t (1 : Fin 2) * 1024 ≤ (i 1).val ∧ (i 1).val < win0_1.index t (1 : Fin 2) * 1024 + 1024; omega

/-- The output array after the launch: the inner products of the rows of the staged array. -/
theorem final (c : Dev nD) : (dats m 0 c).arrAt 1 cfg0.N = Cert.Gram.gram (V m c main_v87) :=
  (dats m 0 c).arrAt_eq_of_cover 1 (Cert.Gram.gram (V m c main_v87)) (fun t _ => flushed_eq m c t) cover

end Cert.KernelIdeal.Array

end
-- ==== Proof.Staged.lean ====
/-
  The array the decoder is launched on. Before the launch the kernel's program computes the latent array Z — the
  graph-convolution layers, the two softmaxes, the reparameterization — by the same sequence of host operations, on
  the same arguments, as the reference computes its stage `%86`; the only further step is the conversion to bf16,
  which on the extended reals is the identity. So the staged array is the reference's stage `%86` of the kernel's
  own arguments: both are one term, operation by operation.
-/
import proofs.«124466_j63110249447564_2_alg».proof.Proof.Gen.KernelIdeal.Frame
import proofs.«124466_j63110249447564_2_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Staged

open Cert.KernelIdeal Cert.KernelIdeal.Gen

variable (m : (ℓ : Loc nD τ sig) → Buf (Elt Ideal) ℓ)

set_option maxHeartbeats 4000000 in
/-- The staged array, as the launch finds it, is the reference's latent array of the same ten arguments. -/
theorem staged_eq (c : Dev nD) :
    (V m c main_v87 : S8192x16.Idx → EReal)
      = Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  dsimp only [V, V0]
  simp only [hostOps0, hostOps0_1, hostOps0_2, List.flatten_cons, List.flatten_nil, List.append_nil, List.cons_append, List.nil_append]
  after_results_simp
  rfl

end Cert.KernelIdeal.Staged

end
-- ==== Proof.Decode.lean ====
/-
  The kernel's whole run, read. After the launch the one remaining host operation flattens the 8192 × 8192 output
  row after row. The output array is the array of inner products of the rows of the staged array, and the staged
  array is the latent array Z the host operations before the launch computed from the arguments; so the result
  holds, at position a · 8192 + b, the inner product Σ_k Z (a, k) · Z (b, k), and the arguments end unchanged.
-/
import proofs.«124466_j63110249447564_2_alg».proof.Proof.KernelArray
import proofs.«124466_j63110249447564_2_alg».proof.Proof.Staged
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Decode

open Cert.KernelIdeal Cert.KernelIdeal.Gen

variable (m : (ℓ : Loc nD τ sig) → Buf (Elt Ideal) ℓ) (ρ : Dev nD → PrngReg)

/-- The latent array: the reference's stage `%86` read at the kernel's own arguments. -/
abbrev latent (c : Dev nD) : S8192x16.Idx → EReal :=
  Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- What the host operation after the launch leaves in the result: the launch's output array, flattened. -/
theorem tail_eq (c : Dev nD) :
    Pipeline.afterTail₀ cfgs (dats m) 0 (V0 m) [hostOps1] c main_v89
      = Cert.Gram.gramFlat (latent m c) Facts₀.shapeCasts_S8192x8192_S67108864 := by
  unfold Pipeline.afterTail₀
  show StableHlo.after hostOps1 _ (Proc.devRef .tc main_v89) = _
  after_results
  have e : Pipeline.withArrays (cfgs 0).spec c (V0 m c) (fun w => (dats m 0 c).arrAt w (cfgs 0).N) (Proc.devRef .tc main_v88)
      = Cert.Gram.gram (latent m c) :=
    ((Pipeline.withArrays_arr spec0 launch0.win.arr_inj c _ _ (1 : Fin 2)).trans (Array.final m c)).trans
      (congrArg Cert.Gram.gram (Staged.staged_eq m c))
  rw [e]
  rfl

/-- Every weakly fair execution of the kernel's program terminates with the result at the flattened array of inner
    products of the rows of the latent array, and the ten arguments as launched. -/
theorem run : θ_run defs (onTc (τ := τ) (main (F := Ideal))) ⟨m, fun _ => 0, ρ⟩ fun r => ∀ c : Dev nD,
      r.2.mem ((c.tc : Thread nD τ).loc main_v89) = Cert.Gram.gramFlat (latent m c) Facts₀.shapeCasts_S8192x8192_S67108864
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨
      ((h c).2 main_v89 (Pipeline.mem_restRefs_of main_v89 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Decode

end
-- ==== Proof.RefGram.lean ====
/-
  The reference's decoder. Its last three operations transpose the 8192 × 16 array Z, multiply Z by that transpose
  and flatten the product. Entry (a, b) of the product is Σ_k Z (a, k) · Zᵀ (k, b) = Σ_k Z (a, k) · Z (b, k): the
  array of inner products of the rows of Z, then flattened row after row.
-/
import proofs.«124466_j63110249447564_2_alg».proof.Proof.Gen.ReferenceIdeal.Read
import proofs.«124466_j63110249447564_2_alg».proof.Proof.Gram

noncomputable section

open scoped BigOperators
open Idealize.ShloMosaic Idealize.ShloMosaic.TcCoe Idealize.SL.Sem Idealize.ShloMosaic.ValueIdx

namespace Cert.ReferenceIdeal.RefGram

open Cert.ReferenceIdeal Cert.ReferenceIdeal.Read Cert.ReferenceIdeal.Facts₀

/-- The product with the transpose, entry by entry, is the array of inner products of the rows. -/
theorem product_eq (x0 : (⟨S8192x512, .f32⟩ : BufTy).Contents (Elt Ideal)) (x1 x2 : (⟨S131072, .i32⟩ : BufTy).Contents (Elt Ideal))
    (x3 : (⟨S131072, .f32⟩ : BufTy).Contents (Elt Ideal)) (x4 : (⟨S512x32, .f32⟩ : BufTy).Contents (Elt Ideal))
    (x5 x6 x7 : (⟨S32x16, .f32⟩ : BufTy).Contents (Elt Ideal)) (x8 x9 : (⟨S8192x16, .f32⟩ : BufTy).Contents (Elt Ideal)) :
    val_main_v88 (F := Ideal) x0 x1 x2 x3 x4 x5 x6 x7 x8 x9 = Cert.Gram.gram (val_main_v86 (F := Ideal) x0 x1 x2 x3 x4 x5 x6 x7 x8 x9) := by
  funext i
  rw [val_main_v88_apply]
  unfold Cert.Gram.gram
  refine Finset.sum_congr rfl fun k _ => ?_
  rw [val_main_v87_apply]
  have el : lidx_main_v88 i k = ix2 (i 0) k := funext fun a => by
    match a with
    | ⟨0, _⟩ => rfl
    | ⟨1, _⟩ => rfl
  have er : idx_main_v87 (ridx_main_v88 i k) = ix2 (i 1) k := funext fun a => by
    match a with
    | ⟨0, _⟩ => rfl
    | ⟨1, _⟩ => rfl
  rw [el, er]
  rfl

/-- The reference's result is the flattened array of inner products of the rows of its stage `%86`. -/
theorem result_eq (x0 : (⟨S8192x512, .f32⟩ : BufTy).Contents (Elt Ideal)) (x1 x2 : (⟨S131072, .i32⟩ : BufTy).Contents (Elt Ideal))
    (x3 : (⟨S131072, .f32⟩ : BufTy).Contents (Elt Ideal)) (x4 : (⟨S512x32, .f32⟩ : BufTy).Contents (Elt Ideal))
    (x5 x6 x7 : (⟨S32x16, .f32⟩ : BufTy).Contents (Elt Ideal)) (x8 x9 : (⟨S8192x16, .f32⟩ : BufTy).Contents (Elt Ideal)) :
    val_main_v89 (F := Ideal) x0 x1 x2 x3 x4 x5 x6 x7 x8 x9
      = Cert.Gram.gramFlat (val_main_v86 (F := Ideal) x0 x1 x2 x3 x4 x5 x6 x7 x8 x9) shapeCasts_S8192x8192_S67108864 := by
  unfold val_main_v89 Cert.Gram.gramFlat
  rw [product_eq]

end Cert.ReferenceIdeal.RefGram

end
-- ==== Proof.lean ====
/-
  The inner-product decoder of a graph auto-encoder: both programs compute a latent array Z of 8192 rows of 16 numbers
  from the ten arguments by the same host operations (graph convolutions as gather and segment sum, two row
  softmaxes, the double reparameterization) and return Z · Zᵀ flattened. The kernel converts Z to bf16, computes
  Z · Zᵀ on a 4 × 8 grid of 2048 × 1024 blocks, each block the product of a 2048-row slice of Z with the transpose
  of a 1024-row slice, and flattens the result; the reference transposes Z, multiplies and flattens.

  On the extended reals the conversion to bf16 is the identity, block (i, j) of the kernel's output at (p, q) is
  Σ_k Z (2048 i + p, k) · Z (1024 j + q, k), and the reference's product at (a, b) is Σ_k Z (a, k) · Zᵀ (k, b), the
  same sum; the blocks tile the output. So both results hold Σ_k Z (a, k) · Z (b, k) at position 8192 a + b. No law
  of arithmetic beyond reading the two products entry by entry is used, and the inputs' finiteness is not needed.

  The kernel's idealization is its own text read on the extended reals: no operation of it was rewritten.
-/
import proofs.«124466_j63110249447564_2_alg».proof.Defs
import proofs.«124466_j63110249447564_2_alg».proof.Proof.Gen.Kernel
import proofs.«124466_j63110249447564_2_alg».proof.Proof.Gen.Kernel.Skeleton
import proofs.«124466_j63110249447564_2_alg».proof.Proof.Gen.Kernel.Launch
import proofs.«124466_j63110249447564_2_alg».proof.Proof.Gen.Kernel.Points
import proofs.«124466_j63110249447564_2_alg».proof.Proof.Gen.Kernel.Frame
import proofs.«124466_j63110249447564_2_alg».proof.Proof.Gen.KernelIdeal
import proofs.«124466_j63110249447564_2_alg».proof.Proof.Gen.KernelIdeal.Skeleton
import proofs.«124466_j63110249447564_2_alg».proof.Proof.Gen.KernelIdeal.Launch
import proofs.«124466_j63110249447564_2_alg».proof.Proof.Gen.KernelIdeal.Points
import proofs.«124466_j63110249447564_2_alg».proof.Proof.Gen.KernelIdeal.Frame
import proofs.«124466_j63110249447564_2_alg».proof.Proof.Gen.ReferenceIdeal
import proofs.«124466_j63110249447564_2_alg».proof.Proof.Gen.ReferenceIdeal.Run
import proofs.«124466_j63110249447564_2_alg».proof.Proof.Gen.ReferenceIdeal.Read
import proofs.«124466_j63110249447564_2_alg».proof.Proof.Gen.Pre_finite_inputs
import proofs.«124466_j63110249447564_2_alg».proof.Proof.Decode
import proofs.«124466_j63110249447564_2_alg».proof.Proof.RefGram
import Idealize.ShloMosaic.Adequacy
import Idealize.ShloMosaic.Init

noncomputable section

namespace Cert.Proof

open Idealize.ShloMosaic Idealize.SL.Sem

/-- The kernel's program at the word level runs and leaves its arguments as launched. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both programs end with the flattened array of inner products of the rows of the latent array of arguments that
    agree. -/
theorem algebraic : Cert.algebraic_KernelIdeal_ReferenceIdeal := by
  intro m ρ m' ρ' _ hagree
  refine ⟨fun c => Cert.Gram.gramFlat (Cert.KernelIdeal.Decode.latent m c)
    Cert.KernelIdeal.Facts₀.shapeCasts_S8192x8192_S67108864, Cert.KernelIdeal.Decode.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v89_eq, Cert.ReferenceIdeal.RefGram.result_eq, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
